-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x224x224 : Shape := ⟨4, ![8, 64, 224, 224]⟩
abbrev S_ : Shape := ⟨0, ![]⟩

class Facts : Prop where
  bcast_S_S8x64x224x224 : S_.BroadcastsInDim S8x64x224x224 (![] : Fin 0 → Fin S8x64x224x224.rank)
  reducesTo_S8x64x224x224_S_d0_1_2_3 : S8x64x224x224.ReducesTo [0, 1, 2, 3] S_
  h_S_ : 0 < S_.numel

variable [Facts]

def fn {F : FTy → Type} [FloatOps F] (main_arg0 : FVec F S8x64x224x224 .f32) : IVec S_ 1 :=
  let main_v0 : FVec F S8x64x224x224 .f32 := Host.absf main_arg0
  let main_cst : FVec F S_ .f32 := constant S_ .f32 0x7F800000#32
  let main_v1 : FVec F S8x64x224x224 .f32 := broadcastInDim S8x64x224x224 ![] bcast_S_S8x64x224x224 main_cst
  let main_v2 : IVec S8x64x224x224 1 := cmpf .olt main_v0 main_v1
  let main_c : IVec S_ 1 := constantI S_ 1 1#1
  let main_v3 : IVec S_ 1 := (fun x v => Host.reduce IntOp.andi x v reducesTo_S8x64x224x224_S_d0_1_2_3 h_S_) main_v2 main_c
  main_v3
-- ==== Kernel.lean ====
abbrev S8x64x224x224 : Shape := ⟨4, ![8, 64, 224, 224]⟩
abbrev S8x64x9x224x224 : Shape := ⟨5, ![8, 64, 9, 224, 224]⟩
abbrev S1x8x224x224 : Shape := ⟨4, ![1, 8, 224, 224]⟩
abbrev S1x8x9x224x224 : Shape := ⟨5, ![1, 8, 9, 224, 224]⟩
abbrev S8x1x224 : Shape := ⟨3, ![8, 1, 224]⟩
abbrev S1x8x1x1x224 : Shape := ⟨5, ![1, 8, 1, 1, 224]⟩
abbrev S8x224x1 : Shape := ⟨3, ![8, 224, 1]⟩
abbrev S1x8x1x224x1 : Shape := ⟨5, ![1, 8, 1, 224, 1]⟩
abbrev S1x8x223x223 : Shape := ⟨4, ![1, 8, 223, 223]⟩
abbrev S8x223x223 : Shape := ⟨3, ![8, 223, 223]⟩
abbrev S1x8x1x223x223 : Shape := ⟨5, ![1, 8, 1, 223, 223]⟩
abbrev S1x8x223x224 : Shape := ⟨4, ![1, 8, 223, 224]⟩
abbrev S8x223x224 : Shape := ⟨3, ![8, 223, 224]⟩
abbrev S1x8x1x223x224 : Shape := ⟨5, ![1, 8, 1, 223, 224]⟩
abbrev S1x8x224x223 : Shape := ⟨4, ![1, 8, 224, 223]⟩
abbrev S8x224x223 : Shape := ⟨3, ![8, 224, 223]⟩
abbrev S1x8x1x224x223 : Shape := ⟨5, ![1, 8, 1, 224, 223]⟩
abbrev S8x224x224 : Shape := ⟨3, ![8, 224, 224]⟩
abbrev S1x8x1x224x224 : Shape := ⟨5, ![1, 8, 1, 224, 224]⟩
abbrev S8x576x50176 : Shape := ⟨3, ![8, 576, 50176]⟩

abbrev nBuf : Space → Nat
  | .hbm => 3
  | .vmem => 4
  | .smem => 0
  | _ => 0

abbrev bufTy : (tb : Table) → Fin (tcTables nBuf tb) → BufTy
  | .hbm, ⟨0, _⟩ => ⟨S8x64x224x224, .f32⟩
  | .hbm, ⟨1, _⟩ => ⟨S8x64x9x224x224, .f32⟩
  | .hbm, ⟨2, _⟩ => ⟨S8x576x50176, .f32⟩
  | .local _ .vmem, ⟨0, _⟩ => ⟨S1x8x224x224, .f32⟩
  | .local _ .vmem, ⟨1, _⟩ => ⟨S1x8x224x224, .f32⟩
  | .local _ .vmem, ⟨2, _⟩ => ⟨S1x8x9x224x224, .f32⟩
  | .local _ .vmem, ⟨3, _⟩ => ⟨S1x8x9x224x224, .f32⟩
  | _, _ => ⟨S8x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x8x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x9x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x8x9x224x224_S1x8x1x1x224_0_0_0_0_0 : ∀ a, (![0, 0, 0, 0, 0] : Fin 5 → Nat) a + S1x8x1x1x224.size a ≤ S1x8x9x224x224.size a
  h_S1x8x1x1x224 : 0 < S1x8x1x1x224.numel
  shapeCasts_S1x8x1x1x224_S8x1x224 : S1x8x1x1x224.ShapeCasts S8x1x224
  shapeCasts_S8x1x224_S1x8x1x1x224 : S8x1x224.ShapeCasts S1x8x1x1x224
  inb_S1x8x9x224x224_S1x8x1x224x1_0_0_0_0_0 : ∀ a, (![0, 0, 0, 0, 0] : Fin 5 → Nat) a + S1x8x1x224x1.size a ≤ S1x8x9x224x224.size a
  h_S1x8x1x224x1 : 0 < S1x8x1x224x1.numel
  shapeCasts_S1x8x1x224x1_S8x224x1 : S1x8x1x224x1.ShapeCasts S8x224x1
  shapeCasts_S8x224x1_S1x8x1x224x1 : S8x224x1.ShapeCasts S1x8x1x224x1
  inb_S1x8x224x224_S1x8x223x223_0_0_0_0 : ∀ a, (![0, 0, 0, 0] : Fin 4 → Nat) a + S1x8x223x223.size a ≤ S1x8x224x224.size a
  h_S1x8x223x223 : 0 < S1x8x223x223.numel
  shapeCasts_S1x8x223x223_S8x223x223 : S1x8x223x223.ShapeCasts S8x223x223
  inb_S1x8x9x224x224_S1x8x1x223x223_0_0_0_1_1 : ∀ a, (![0, 0, 0, 1, 1] : Fin 5 → Nat) a + S1x8x1x223x223.size a ≤ S1x8x9x224x224.size a
  h_S1x8x1x223x223 : 0 < S1x8x1x223x223.numel
  shapeCasts_S1x8x1x223x223_S8x223x223 : S1x8x1x223x223.ShapeCasts S8x223x223
  shapeCasts_S8x223x223_S1x8x1x223x223 : S8x223x223.ShapeCasts S1x8x1x223x223
  inb_S1x8x9x224x224_S1x8x1x1x224_0_0_1_0_0 : ∀ a, (![0, 0, 1, 0, 0] : Fin 5 → Nat) a + S1x8x1x1x224.size a ≤ S1x8x9x224x224.size a
  inb_S1x8x224x224_S1x8x223x224_0_0_0_0 : ∀ a, (![0, 0, 0, 0] : Fin 4 → Nat) a + S1x8x223x224.size a ≤ S1x8x224x224.size a
  h_S1x8x223x224 : 0 < S1x8x223x224.numel
  shapeCasts_S1x8x223x224_S8x223x224 : S1x8x223x224.ShapeCasts S8x223x224
  inb_S1x8x9x224x224_S1x8x1x223x224_0_0_1_1_0 : ∀ a, (![0, 0, 1, 1, 0] : Fin 5 → Nat) a + S1x8x1x223x224.size a ≤ S1x8x9x224x224.size a
  h_S1x8x1x223x224 : 0 < S1x8x1x223x224.numel
  shapeCasts_S1x8x1x223x224_S8x223x224 : S1x8x1x223x224.ShapeCasts S8x223x224
  shapeCasts_S8x223x224_S1x8x1x223x224 : S8x223x224.ShapeCasts S1x8x1x223x224
  inb_S1x8x9x224x224_S1x8x1x1x224_0_0_2_0_0 : ∀ a, (![0, 0, 2, 0, 0] : Fin 5 → Nat) a + S1x8x1x1x224.size a ≤ S1x8x9x224x224.size a
  inb_S1x8x9x224x224_S1x8x1x224x1_0_0_2_0_223 : ∀ a, (![0, 0, 2, 0, 223] : Fin 5 → Nat) a + S1x8x1x224x1.size a ≤ S1x8x9x224x224.size a
  inb_S1x8x224x224_S1x8x223x223_0_0_0_1 : ∀ a, (![0, 0, 0, 1] : Fin 4 → Nat) a + S1x8x223x223.size a ≤ S1x8x224x224.size a
  inb_S1x8x9x224x224_S1x8x1x223x223_0_0_2_1_0 : ∀ a, (![0, 0, 2, 1, 0] : Fin 5 → Nat) a + S1x8x1x223x223.size a ≤ S1x8x9x224x224.size a
  inb_S1x8x9x224x224_S1x8x1x224x1_0_0_3_0_0 : ∀ a, (![0, 0, 3, 0, 0] : Fin 5 → Nat) a + S1x8x1x224x1.size a ≤ S1x8x9x224x224.size a
  inb_S1x8x224x224_S1x8x224x223_0_0_0_0 : ∀ a, (![0, 0, 0, 0] : Fin 4 → Nat) a + S1x8x224x223.size a ≤ S1x8x224x224.size a
  h_S1x8x224x223 : 0 < S1x8x224x223.numel
  shapeCasts_S1x8x224x223_S8x224x223 : S1x8x224x223.ShapeCasts S8x224x223
  inb_S1x8x9x224x224_S1x8x1x224x223_0_0_3_0_1 : ∀ a, (![0, 0, 3, 0, 1] : Fin 5 → Nat) a + S1x8x1x224x223.size a ≤ S1x8x9x224x224.size a
  h_S1x8x1x224x223 : 0 < S1x8x1x224x223.numel
  shapeCasts_S1x8x1x224x223_S8x224x223 : S1x8x1x224x223.ShapeCasts S8x224x223
  shapeCasts_S8x224x223_S1x8x1x224x223 : S8x224x223.ShapeCasts S1x8x1x224x223
  inb_S1x8x224x224_S1x8x224x224_0_0_0_0 : ∀ a, (![0, 0, 0, 0] : Fin 4 → Nat) a + S1x8x224x224.size a ≤ S1x8x224x224.size a
  h_S1x8x224x224 : 0 < S1x8x224x224.numel
  shapeCasts_S1x8x224x224_S8x224x224 : S1x8x224x224.ShapeCasts S8x224x224
  inb_S1x8x9x224x224_S1x8x1x224x224_0_0_4_0_0 : ∀ a, (![0, 0, 4, 0, 0] : Fin 5 → Nat) a + S1x8x1x224x224.size a ≤ S1x8x9x224x224.size a
  h_S1x8x1x224x224 : 0 < S1x8x1x224x224.numel
  shapeCasts_S1x8x1x224x224_S8x224x224 : S1x8x1x224x224.ShapeCasts S8x224x224
  shapeCasts_S8x224x224_S1x8x1x224x224 : S8x224x224.ShapeCasts S1x8x1x224x224
  inb_S1x8x9x224x224_S1x8x1x224x1_0_0_5_0_223 : ∀ a, (![0, 0, 5, 0, 223] : Fin 5 → Nat) a + S1x8x1x224x1.size a ≤ S1x8x9x224x224.size a
  inb_S1x8x224x224_S1x8x224x223_0_0_0_1 : ∀ a, (![0, 0, 0, 1] : Fin 4 → Nat) a + S1x8x224x223.size a ≤ S1x8x224x224.size a
  inb_S1x8x9x224x224_S1x8x1x224x223_0_0_5_0_0 : ∀ a, (![0, 0, 5, 0, 0] : Fin 5 → Nat) a + S1x8x1x224x223.size a ≤ S1x8x9x224x224.size a
  inb_S1x8x9x224x224_S1x8x1x1x224_0_0_6_223_0 : ∀ a, (![0, 0, 6, 223, 0] : Fin 5 → Nat) a + S1x8x1x1x224.size a ≤ S1x8x9x224x224.size a
  inb_S1x8x9x224x224_S1x8x1x224x1_0_0_6_0_0 : ∀ a, (![0, 0, 6, 0, 0] : Fin 5 → Nat) a + S1x8x1x224x1.size a ≤ S1x8x9x224x224.size a
  inb_S1x8x224x224_S1x8x223x223_0_0_1_0 : ∀ a, (![0, 0, 1, 0] : Fin 4 → Nat) a + S1x8x223x223.size a ≤ S1x8x224x224.size a
  inb_S1x8x9x224x224_S1x8x1x223x223_0_0_6_0_1 : ∀ a, (![0, 0, 6, 0, 1] : Fin 5 → Nat) a + S1x8x1x223x223.size a ≤ S1x8x9x224x224.size a
  inb_S1x8x9x224x224_S1x8x1x1x224_0_0_7_223_0 : ∀ a, (![0, 0, 7, 223, 0] : Fin 5 → Nat) a + S1x8x1x1x224.size a ≤ S1x8x9x224x224.size a
  inb_S1x8x224x224_S1x8x223x224_0_0_1_0 : ∀ a, (![0, 0, 1, 0] : Fin 4 → Nat) a + S1x8x223x224.size a ≤ S1x8x224x224.size a
  inb_S1x8x9x224x224_S1x8x1x223x224_0_0_7_0_0 : ∀ a, (![0, 0, 7, 0, 0] : Fin 5 → Nat) a + S1x8x1x223x224.size a ≤ S1x8x9x224x224.size a
  inb_S1x8x9x224x224_S1x8x1x1x224_0_0_8_223_0 : ∀ a, (![0, 0, 8, 223, 0] : Fin 5 → Nat) a + S1x8x1x1x224.size a ≤ S1x8x9x224x224.size a
  inb_S1x8x9x224x224_S1x8x1x224x1_0_0_8_0_223 : ∀ a, (![0, 0, 8, 0, 223] : Fin 5 → Nat) a + S1x8x1x224x1.size a ≤ S1x8x9x224x224.size a
  inb_S1x8x224x224_S1x8x223x223_0_0_1_1 : ∀ a, (![0, 0, 1, 1] : Fin 4 → Nat) a + S1x8x223x223.size a ≤ S1x8x224x224.size a
  inb_S1x8x9x224x224_S1x8x1x223x223_0_0_8_0_0 : ∀ a, (![0, 0, 8, 0, 0] : Fin 5 → Nat) a + S1x8x1x223x223.size a ≤ S1x8x9x224x224.size a
  shapeCasts_S8x64x9x224x224_S8x576x50176 : S8x64x9x224x224.ShapeCasts S8x576x50176
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x224x224.size a ≤ S8x64x224x224.size a
  hwx0_0 : ∀ i : grid0.Coords, EltTy.bits .f32 = 32 ∨ (Rect.block (s := S8x64x224x224) S1x8x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x9x224x224.size a ≤ S8x64x9x224x224.size a
  hwx0_1 : ∀ i : grid0.Coords, EltTy.bits .f32 = 32 ∨ (Rect.block (s := S8x64x9x224x224) S1x8x9x224x224.size (cc0_transform_1 i) (hinb0_1 i)).WholeWords (EltTy.packing .f32)

variable [Facts₀]

abbrev win0_0 : Pipeline.Window sig grid0 :=
  Pipeline.Window.ofSpec (Memref.whole main_arg0) S1x8x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x9x224x224.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x224x224 : Shape := ⟨4, ![8, 64, 224, 224]⟩
abbrev S_ : Shape := ⟨0, ![]⟩
abbrev S8x64x226x226 : Shape := ⟨4, ![8, 64, 226, 226]⟩
abbrev S8x64x1x224x224 : Shape := ⟨5, ![8, 64, 1, 224, 224]⟩
abbrev S8x64x9x224x224 : Shape := ⟨5, ![8, 64, 9, 224, 224]⟩
abbrev S8x576x50176 : Shape := ⟨3, ![8, 576, 50176]⟩

abbrev nBuf : Space → Nat
  | .hbm => 24
  | .vmem => 0
  | .smem => 0
  | _ => 0

abbrev bufTy : (tb : Table) → Fin (tcTables nBuf tb) → BufTy
  | .hbm, ⟨0, _⟩ => ⟨S8x64x224x224, .f32⟩
  | .hbm, ⟨1, _⟩ => ⟨S_, .i32⟩
  | .hbm, ⟨2, _⟩ => ⟨S_, .f32⟩
  | .hbm, ⟨3, _⟩ => ⟨S8x64x226x226, .f32⟩
  | .hbm, ⟨4, _⟩ => ⟨S8x64x224x224, .f32⟩
  | .hbm, ⟨5, _⟩ => ⟨S8x64x224x224, .f32⟩
  | .hbm, ⟨6, _⟩ => ⟨S8x64x224x224, .f32⟩
  | .hbm, ⟨7, _⟩ => ⟨S8x64x224x224, .f32⟩
  | .hbm, ⟨8, _⟩ => ⟨S8x64x224x224, .f32⟩
  | .hbm, ⟨9, _⟩ => ⟨S8x64x224x224, .f32⟩
  | .hbm, ⟨10, _⟩ => ⟨S8x64x224x224, .f32⟩
  | .hbm, ⟨11, _⟩ => ⟨S8x64x224x224, .f32⟩
  | .hbm, ⟨12, _⟩ => ⟨S8x64x224x224, .f32⟩
  | .hbm, ⟨13, _⟩ => ⟨S8x64x1x224x224, .f32⟩
  | .hbm, ⟨14, _⟩ => ⟨S8x64x1x224x224, .f32⟩
  | .hbm, ⟨15, _⟩ => ⟨S8x64x1x224x224, .f32⟩
  | .hbm, ⟨16, _⟩ => ⟨S8x64x1x224x224, .f32⟩
  | .hbm, ⟨17, _⟩ => ⟨S8x64x1x224x224, .f32⟩
  | .hbm, ⟨18, _⟩ => ⟨S8x64x1x224x224, .f32⟩
  | .hbm, ⟨19, _⟩ => ⟨S8x64x1x224x224, .f32⟩
  | .hbm, ⟨20, _⟩ => ⟨S8x64x1x224x224, .f32⟩
  | .hbm, ⟨21, _⟩ => ⟨S8x64x1x224x224, .f32⟩
  | .hbm, ⟨22, _⟩ => ⟨S8x64x9x224x224, .f32⟩
  | .hbm, ⟨23, _⟩ => ⟨S8x576x50176, .f32⟩
  | _, _ => ⟨S8x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]

class Facts₀ : Prop where
  pads_S8x64x224x224_S8x64x226x226_000_000_110_110 : S8x64x224x224.Pads (![0, 0, 1, 1] : Fin 4 → Nat) ![0, 0, 1, 1] ![0, 0, 0, 0] S8x64x226x226
  h_S_ : 0 < S_.numel
  slices_S8x64x226x226_S8x64x224x224_0_0_0_0 : S8x64x226x226.Slices ![0, 0, 0, 0] S8x64x224x224
  slices_S8x64x226x226_S8x64x224x224_0_0_0_1 : S8x64x226x226.Slices ![0, 0, 0, 1] S8x64x224x224
  slices_S8x64x226x226_S8x64x224x224_0_0_0_2 : S8x64x226x226.Slices ![0, 0, 0, 2] S8x64x224x224
  slices_S8x64x226x226_S8x64x224x224_0_0_1_0 : S8x64x226x226.Slices ![0, 0, 1, 0] S8x64x224x224
  slices_S8x64x226x226_S8x64x224x224_0_0_1_1 : S8x64x226x226.Slices ![0, 0, 1, 1] S8x64x224x224
  slices_S8x64x226x226_S8x64x224x224_0_0_1_2 : S8x64x226x226.Slices ![0, 0, 1, 2] S8x64x224x224
  slices_S8x64x226x226_S8x64x224x224_0_0_2_0 : S8x64x226x226.Slices ![0, 0, 2, 0] S8x64x224x224
  slices_S8x64x226x226_S8x64x224x224_0_0_2_1 : S8x64x226x226.Slices ![0, 0, 2, 1] S8x64x224x224
  slices_S8x64x226x226_S8x64x224x224_0_0_2_2 : S8x64x226x226.Slices ![0, 0, 2, 2] S8x64x224x224
  bcast_S8x64x224x224_S8x64x1x224x224_0_1_3_4 : S8x64x224x224.BroadcastsInDim S8x64x1x224x224 (![0, 1, 3, 4] : Fin 4 → Fin S8x64x1x224x224.rank)
  concatenates_S8x64x1x224x224_S8x64x1x224x224_S8x64x1x224x224_S8x64x1x224x224_S8x64x1x224x224_S8x64x1x224x224_S8x64x1x224x224_S8x64x1x224x224_S8x64x1x224x224_S8x64x9x224x224_d2 : Shape.Concatenates [S8x64x1x224x224, S8x64x1x224x224, S8x64x1x224x224, S8x64x1x224x224, S8x64x1x224x224, S8x64x1x224x224, S8x64x1x224x224, S8x64x1x224x224, S8x64x1x224x224] S8x64x9x224x224 2
  shapeCasts_S8x64x9x224x224_S8x576x50176 : S8x64x9x224x224.ShapeCasts S8x576x50176

variable [Facts₀]

class Facts : Prop extends Facts₀ where

variable [Facts]
-- ==== Proof.BlockCover.lean ====
/-
  The rectangles of the 21 stores of the 3 x 3 unfold body cover its output block `[1, 8, 9, 224, 224]`: in copy plane
  `k` the moved image rectangle and the one or two border strips beside it (first or last row, first or last column)
  make up the whole 224 x 224 plane. Stated over arbitrary payloads, so that it serves the body read at any element
  type.
-/
import Idealize.ShloMosaic.Lib.Pipeline.Value

noncomputable section

namespace Cert.Unfold

open Idealize.ShloMosaic

/-- The block of eight images' nine copies. -/
abbrev Blk : Shape := ⟨5, ![1, 8, 9, 224, 224]⟩

variable {Val : EltTy → Type} {e : EltTy}

/-- An index lies in a unit-stride rectangle of the block when each coordinate lies in its range. -/
theorem mem_store (o0 o1 o2 o3 o4 s0 s1 s2 s3 s4 : Nat)
    (inb : ∀ a, (![o0, o1, o2, o3, o4] : Fin 5 → Nat) a + (![s0, s1, s2, s3, s4] : Fin 5 → Nat) a ≤ Blk.size a)
    (y : Blk.Idx) (h2 : o2 ≤ (y 2).val ∧ (y 2).val < o2 + s2) (h3 : o3 ≤ (y 3).val ∧ (y 3).val < o3 + s3)
    (h4 : o4 ≤ (y 4).val ∧ (y 4).val < o4 + s4) (h0 : o0 ≤ (y 0).val ∧ (y 0).val < o0 + s0)
    (h1 : o1 ≤ (y 1).val ∧ (y 1).val < o1 + s1) :
    y ∈ (Rect.unit (s := Blk) ![o0, o1, o2, o3, o4] ![s0, s1, s2, s3, s4] inb).set :=
  Rect.mem_set_unit.mpr fun a => match a with
    | ⟨0, _⟩ => h0
    | ⟨1, _⟩ => h1
    | ⟨2, _⟩ => h2
    | ⟨3, _⟩ => h3
    | ⟨4, _⟩ => h4

/-- The first piece of a list holds the index; -/
theorem piece_here {y : Blk.Idx} {p : View.Piece Val Blk e} {L : List (View.Piece Val Blk e)} (h : y ∈ p.1.set) :
    ∃ pc ∈ p :: L, y ∈ pc.1.set := ⟨p, List.mem_cons_self, h⟩

/-- or a later one does. -/
theorem piece_later {y : Blk.Idx} {p : View.Piece Val Blk e} {L : List (View.Piece Val Blk e)}
    (h : ∃ pc ∈ L, y ∈ pc.1.set) : ∃ pc ∈ p :: L, y ∈ pc.1.set :=
  let ⟨q, hq, hy⟩ := h; ⟨q, List.mem_cons_of_mem _ hq, hy⟩

/-- Walk a literal list of stores to the first one whose rectangle holds the index: the ranges are linear facts
    about the index's coordinates. -/
syntax "find_store" : tactic
macro_rules
  | `(tactic| find_store) => `(tactic|
      first
        | exact piece_here (mem_store _ _ _ _ _ _ _ _ _ _ (by decide) _ (by omega) (by omega) (by omega) (by omega) (by omega))
        | (refine piece_later ?_; find_store))

/-- The 21 stores, last first, whatever they write: copy 8 (image part rows and columns 0 … 222, last column, last
    row), 7 (rows 0 … 222, last row), 6 (rows 0 … 222 and columns 1 … 223, first column, last row), 5 (columns
    0 … 222, last column), 4 (everything), 3 (columns 1 … 223, first column), 2 (rows 1 … 223 and columns 0 … 222, last
    column, first row), 1 (rows 1 … 223, first row), 0 (rows and columns 1 … 223, first column, first row). -/
theorem stores_cover
    (i1 : ∀ a, (![0, 0, 8, 0, 0] : Fin 5 → Nat) a + (![1, 8, 1, 223, 223] : Fin 5 → Nat) a ≤ Blk.size a) (w1 : _ → Val e)
    (i2 : ∀ a, (![0, 0, 8, 0, 223] : Fin 5 → Nat) a + (![1, 8, 1, 224, 1] : Fin 5 → Nat) a ≤ Blk.size a) (w2 : _ → Val e)
    (i3 : ∀ a, (![0, 0, 8, 223, 0] : Fin 5 → Nat) a + (![1, 8, 1, 1, 224] : Fin 5 → Nat) a ≤ Blk.size a) (w3 : _ → Val e)
    (i4 : ∀ a, (![0, 0, 7, 0, 0] : Fin 5 → Nat) a + (![1, 8, 1, 223, 224] : Fin 5 → Nat) a ≤ Blk.size a) (w4 : _ → Val e)
    (i5 : ∀ a, (![0, 0, 7, 223, 0] : Fin 5 → Nat) a + (![1, 8, 1, 1, 224] : Fin 5 → Nat) a ≤ Blk.size a) (w5 : _ → Val e)
    (i6 : ∀ a, (![0, 0, 6, 0, 1] : Fin 5 → Nat) a + (![1, 8, 1, 223, 223] : Fin 5 → Nat) a ≤ Blk.size a) (w6 : _ → Val e)
    (i7 : ∀ a, (![0, 0, 6, 0, 0] : Fin 5 → Nat) a + (![1, 8, 1, 224, 1] : Fin 5 → Nat) a ≤ Blk.size a) (w7 : _ → Val e)
    (i8 : ∀ a, (![0, 0, 6, 223, 0] : Fin 5 → Nat) a + (![1, 8, 1, 1, 224] : Fin 5 → Nat) a ≤ Blk.size a) (w8 : _ → Val e)
    (i9 : ∀ a, (![0, 0, 5, 0, 0] : Fin 5 → Nat) a + (![1, 8, 1, 224, 223] : Fin 5 → Nat) a ≤ Blk.size a) (w9 : _ → Val e)
    (i10 : ∀ a, (![0, 0, 5, 0, 223] : Fin 5 → Nat) a + (![1, 8, 1, 224, 1] : Fin 5 → Nat) a ≤ Blk.size a) (w10 : _ → Val e)
    (i11 : ∀ a, (![0, 0, 4, 0, 0] : Fin 5 → Nat) a + (![1, 8, 1, 224, 224] : Fin 5 → Nat) a ≤ Blk.size a) (w11 : _ → Val e)
    (i12 : ∀ a, (![0, 0, 3, 0, 1] : Fin 5 → Nat) a + (![1, 8, 1, 224, 223] : Fin 5 → Nat) a ≤ Blk.size a) (w12 : _ → Val e)
    (i13 : ∀ a, (![0, 0, 3, 0, 0] : Fin 5 → Nat) a + (![1, 8, 1, 224, 1] : Fin 5 → Nat) a ≤ Blk.size a) (w13 : _ → Val e)
    (i14 : ∀ a, (![0, 0, 2, 1, 0] : Fin 5 → Nat) a + (![1, 8, 1, 223, 223] : Fin 5 → Nat) a ≤ Blk.size a) (w14 : _ → Val e)
    (i15 : ∀ a, (![0, 0, 2, 0, 223] : Fin 5 → Nat) a + (![1, 8, 1, 224, 1] : Fin 5 → Nat) a ≤ Blk.size a) (w15 : _ → Val e)
    (i16 : ∀ a, (![0, 0, 2, 0, 0] : Fin 5 → Nat) a + (![1, 8, 1, 1, 224] : Fin 5 → Nat) a ≤ Blk.size a) (w16 : _ → Val e)
    (i17 : ∀ a, (![0, 0, 1, 1, 0] : Fin 5 → Nat) a + (![1, 8, 1, 223, 224] : Fin 5 → Nat) a ≤ Blk.size a) (w17 : _ → Val e)
    (i18 : ∀ a, (![0, 0, 1, 0, 0] : Fin 5 → Nat) a + (![1, 8, 1, 1, 224] : Fin 5 → Nat) a ≤ Blk.size a) (w18 : _ → Val e)
    (i19 : ∀ a, (![0, 0, 0, 1, 1] : Fin 5 → Nat) a + (![1, 8, 1, 223, 223] : Fin 5 → Nat) a ≤ Blk.size a) (w19 : _ → Val e)
    (i20 : ∀ a, (![0, 0, 0, 0, 0] : Fin 5 → Nat) a + (![1, 8, 1, 224, 1] : Fin 5 → Nat) a ≤ Blk.size a) (w20 : _ → Val e)
    (i21 : ∀ a, (![0, 0, 0, 0, 0] : Fin 5 → Nat) a + (![1, 8, 1, 1, 224] : Fin 5 → Nat) a ≤ Blk.size a) (w21 : _ → Val e)
    (y : Blk.Idx) :
    ∃ pc ∈ ([⟨Rect.unit ![0, 0, 8, 0, 0] ![1, 8, 1, 223, 223] i1, w1⟩,
        ⟨Rect.unit ![0, 0, 8, 0, 223] ![1, 8, 1, 224, 1] i2, w2⟩,
        ⟨Rect.unit ![0, 0, 8, 223, 0] ![1, 8, 1, 1, 224] i3, w3⟩,
        ⟨Rect.unit ![0, 0, 7, 0, 0] ![1, 8, 1, 223, 224] i4, w4⟩,
        ⟨Rect.unit ![0, 0, 7, 223, 0] ![1, 8, 1, 1, 224] i5, w5⟩,
        ⟨Rect.unit ![0, 0, 6, 0, 1] ![1, 8, 1, 223, 223] i6, w6⟩,
        ⟨Rect.unit ![0, 0, 6, 0, 0] ![1, 8, 1, 224, 1] i7, w7⟩,
        ⟨Rect.unit ![0, 0, 6, 223, 0] ![1, 8, 1, 1, 224] i8, w8⟩,
        ⟨Rect.unit ![0, 0, 5, 0, 0] ![1, 8, 1, 224, 223] i9, w9⟩,
        ⟨Rect.unit ![0, 0, 5, 0, 223] ![1, 8, 1, 224, 1] i10, w10⟩,
        ⟨Rect.unit ![0, 0, 4, 0, 0] ![1, 8, 1, 224, 224] i11, w11⟩,
        ⟨Rect.unit ![0, 0, 3, 0, 1] ![1, 8, 1, 224, 223] i12, w12⟩,
        ⟨Rect.unit ![0, 0, 3, 0, 0] ![1, 8, 1, 224, 1] i13, w13⟩,
        ⟨Rect.unit ![0, 0, 2, 1, 0] ![1, 8, 1, 223, 223] i14, w14⟩,
        ⟨Rect.unit ![0, 0, 2, 0, 223] ![1, 8, 1, 224, 1] i15, w15⟩,
        ⟨Rect.unit ![0, 0, 2, 0, 0] ![1, 8, 1, 1, 224] i16, w16⟩,
        ⟨Rect.unit ![0, 0, 1, 1, 0] ![1, 8, 1, 223, 224] i17, w17⟩,
        ⟨Rect.unit ![0, 0, 1, 0, 0] ![1, 8, 1, 1, 224] i18, w18⟩,
        ⟨Rect.unit ![0, 0, 0, 1, 1] ![1, 8, 1, 223, 223] i19, w19⟩,
        ⟨Rect.unit ![0, 0, 0, 0, 0] ![1, 8, 1, 224, 1] i20, w20⟩,
        ⟨Rect.unit ![0, 0, 0, 0, 0] ![1, 8, 1, 1, 224] i21, w21⟩] : List (View.Piece Val Blk e)),
      y ∈ pc.1.set := by
  have b0 : (y 0).val < 1 := (y 0).isLt
  have b1 : (y 1).val < 8 := (y 1).isLt
  have b2 : (y 2).val < 9 := (y 2).isLt
  have b3 : (y 3).val < 224 := (y 3).isLt
  have b4 : (y 4).val < 224 := (y 4).isLt
  have hr : (y 3).val = 0 ∨ (1 ≤ (y 3).val ∧ (y 3).val ≤ 222) ∨ (y 3).val = 223 := by omega
  have hc : (y 4).val = 0 ∨ (1 ≤ (y 4).val ∧ (y 4).val ≤ 222) ∨ (y 4).val = 223 := by omega
  -- the copy plane first: its two or three stores are consecutive in the list
  rcases (by omega : (y 2).val = 8 ∨ (y 2).val = 7 ∨ (y 2).val = 6 ∨ (y 2).val = 5 ∨ (y 2).val = 4 ∨ (y 2).val = 3
    ∨ (y 2).val = 2 ∨ (y 2).val = 1 ∨ (y 2).val = 0) with hk | hk | hk | hk | hk | hk | hk | hk | hk
  · rcases hr with hr | hr | hr <;> rcases hc with hc | hc | hc <;> find_store
  · iterate 3 refine piece_later ?_
    rcases hr with hr | hr | hr <;> find_store
  · iterate 5 refine piece_later ?_
    rcases hr with hr | hr | hr <;> rcases hc with hc | hc | hc <;> find_store
  · iterate 8 refine piece_later ?_
    rcases hc with hc | hc | hc <;> find_store
  · iterate 10 refine piece_later ?_
    find_store
  · iterate 11 refine piece_later ?_
    rcases hc with hc | hc | hc <;> find_store
  · iterate 13 refine piece_later ?_
    rcases hr with hr | hr | hr <;> rcases hc with hc | hc | hc <;> find_store
  · iterate 16 refine piece_later ?_
    rcases hr with hr | hr | hr <;> find_store
  · iterate 18 refine piece_later ?_
    rcases hr with hr | hr | hr <;> rcases hc with hc | hc | hc <;> find_store

end Cert.Unfold

end
-- ==== Proof.Unfold.lean ====
/-
  The 3 x 3 unfold (im2col) of a stack of 224 x 224 images with a one-pixel border, as ONE function of the stack, index
  by index. Copy `k = 3·ki + kj` of image `(b, c)` holds at `(h, w)` the image's entry at row `h + ki - 1`, column
  `w + kj - 1` when that position exists, and the border value otherwise. Nothing is added or multiplied: the whole
  content is which entry goes where, so the element type is arbitrary.
-/
import Idealize.ShloMosaic.Lib.ValueIdx
import Idealize.ShloMosaic.Lib.Pipeline.Value

noncomputable section

namespace Cert.Unfold

open Idealize.ShloMosaic Idealize.ShloMosaic.ValueIdx

/-- A stack of `B x C` images of 224 x 224. -/
abbrev Img (B C : Nat) : Shape := ⟨4, ![B, C, 224, 224]⟩
/-- Its nine shifted copies, the copy's number right after the channel. -/
abbrev Pat (B C : Nat) : Shape := ⟨5, ![B, C, 9, 224, 224]⟩

/-- Position `(h, w)` of copy `k` reads INSIDE the image: the source row `h + k / 3 - 1` and the source column
    `w + k % 3 - 1` both exist. -/
def Inside (k h w : Nat) : Prop := (1 ≤ h + k / 3 ∧ h + k / 3 ≤ 224) ∧ (1 ≤ w + k % 3 ∧ w + k % 3 ≤ 224)

instance (k h w : Nat) : Decidable (Inside k h w) := by unfold Inside; infer_instance

/-- The nine shifted copies of every image of the stack `x`, border value `z`. -/
def patches {α : Type} {B C : Nat} (z : α) (x : (Img B C).Idx → α) : (Pat B C).Idx → α := fun j =>
  if h : Inside (j 2).val (j 3).val (j 4).val then
    x (ix4 (⟨(j 0).val, (j 0).isLt⟩ : Fin B) (⟨(j 1).val, (j 1).isLt⟩ : Fin C)
      (⟨(j 3).val + (j 2).val / 3 - 1, by unfold Inside at h; omega⟩ : Fin 224)
      (⟨(j 4).val + (j 2).val % 3 - 1, by unfold Inside at h; omega⟩ : Fin 224))
  else z

/-- Inside the image a copy's entry is the image's, one row and column back from the copy's shift. -/
theorem patches_of_inside {α : Type} {B C : Nat} (z : α) (x : (Img B C).Idx → α) (j : (Pat B C).Idx) (i : (Img B C).Idx)
    (hin : Inside (j 2).val (j 3).val (j 4).val) (h0 : (i 0).val = (j 0).val) (h1 : (i 1).val = (j 1).val)
    (h2 : (i 2).val + 1 = (j 3).val + (j 2).val / 3) (h3 : (i 3).val + 1 = (j 4).val + (j 2).val % 3) :
    patches z x j = x i := by
  unfold patches
  rw [dif_pos hin]
  refine congrArg x (funext fun a => Fin.ext ?_)
  match a with
  | ⟨0, _⟩ => exact h0.symm
  | ⟨1, _⟩ => exact h1.symm
  | ⟨2, _⟩ => show (j 3).val + (j 2).val / 3 - 1 = (i 2).val; omega
  | ⟨3, _⟩ => show (j 4).val + (j 2).val % 3 - 1 = (i 3).val; omega

/-- Outside it the entry is the border value. -/
theorem patches_of_not_inside {α : Type} {B C : Nat} (z : α) (x : (Img B C).Idx → α) (j : (Pat B C).Idx)
    (hout : ¬Inside (j 2).val (j 3).val (j 4).val) : patches z x j = z := by
  unfold patches
  rw [dif_neg hout]

/-- The copies of a SUB-STACK are the sub-stack of the copies: if `e4` and `e5` place a `b x c` block of images, and of
    their copies, at the same batch and channel offsets `(o0, o1)` of the big stack, keeping every other coordinate,
    then unfolding the block read through `e4` is reading the big stack's unfold through `e5`. -/
theorem patches_restrict {α : Type} {B C b c : Nat} (z : α) (X : (Img B C).Idx → α)
    (e4 : (Img b c).Idx → (Img B C).Idx) (e5 : (Pat b c).Idx → (Pat B C).Idx) (o0 o1 : Nat)
    (h40 : ∀ y, (e4 y 0).val = o0 + (y 0).val) (h41 : ∀ y, (e4 y 1).val = o1 + (y 1).val)
    (h42 : ∀ y, (e4 y 2).val = (y 2).val) (h43 : ∀ y, (e4 y 3).val = (y 3).val)
    (h50 : ∀ j, (e5 j 0).val = o0 + (j 0).val) (h51 : ∀ j, (e5 j 1).val = o1 + (j 1).val)
    (h52 : ∀ j, (e5 j 2).val = (j 2).val) (h53 : ∀ j, (e5 j 3).val = (j 3).val) (h54 : ∀ j, (e5 j 4).val = (j 4).val)
    (j : (Pat b c).Idx) :
    patches z (fun y => X (e4 y)) j = patches z X (e5 j) := by
  by_cases hin : Inside (j 2).val (j 3).val (j 4).val
  · have hin' : Inside (e5 j 2).val (e5 j 3).val (e5 j 4).val := by rw [h52, h53, h54]; exact hin
    have hb : (1 ≤ (j 3).val + (j 2).val / 3 ∧ (j 3).val + (j 2).val / 3 ≤ 224)
        ∧ (1 ≤ (j 4).val + (j 2).val % 3 ∧ (j 4).val + (j 2).val % 3 ≤ 224) := hin
    let y : (Img b c).Idx := ix4 (⟨(j 0).val, (j 0).isLt⟩ : Fin b) (⟨(j 1).val, (j 1).isLt⟩ : Fin c)
      (⟨(j 3).val + (j 2).val / 3 - 1, by omega⟩ : Fin 224) (⟨(j 4).val + (j 2).val % 3 - 1, by omega⟩ : Fin 224)
    have ey0 : (y 0).val = (j 0).val := rfl
    have ey1 : (y 1).val = (j 1).val := rfl
    have ey2 : (y 2).val = (j 3).val + (j 2).val / 3 - 1 := rfl
    have ey3 : (y 3).val = (j 4).val + (j 2).val % 3 - 1 := rfl
    rw [patches_of_inside z (fun y => X (e4 y)) j y hin ey0 ey1 (by rw [ey2]; omega) (by rw [ey3]; omega)]
    exact (patches_of_inside z X (e5 j) (e4 y) hin' (by rw [h40, h50, ey0]) (by rw [h41, h51, ey1])
      (by rw [h42, h53, h52, ey2]; omega) (by rw [h43, h54, h52, ey3]; omega)).symm
  · have hout' : ¬Inside (e5 j 2).val (e5 j 3).val (e5 j 4).val := by rw [h52, h53, h54]; exact hin
    rw [patches_of_not_inside z _ j hin, patches_of_not_inside z X (e5 j) hout']

end Cert.Unfold

end
-- ==== Proof.LibRelayout.lean ====
/-
  A block of `c` images moved between the three layouts a kernel body holds it in: `[1, c, h, w]` as loaded from a
  `[1, c, …]` window, `[c, h, w]` while handled, `[1, c, 1, h, w]` as stored into one plane of a `[1, c, K, h, w]` window.
  The casts keep the row-major order, and the unit axes contribute nothing to the row-major position, so the
  entry at `(0, q, 0, r, s)` of the last layout is the entry at `(0, q, r, s)` of the first. Generic in the extents and
  in the element type.
-/
import Idealize.ShloMosaic.Lib.ValueIdx
import Idealize.ShloMosaic.Lib.Pipeline.Value

noncomputable section

namespace Cert.LibRelayout

open Idealize.ShloMosaic Idealize.ShloMosaic.ValueIdx

/-- `[1, c, h, w] → [c, h, w] → [1, c, 1, h, w]` read at `x` is the block at any `k` with `k 1 = x 1`, `k 2 = x 3`,
    `k 3 = x 4` (the coordinates on the unit axes are zero on both sides). -/
theorem relayout_apply {α : Type} {c h w : Nat} (v : (⟨4, ![1, c, h, w]⟩ : Shape).Idx → α)
    (h1 : (⟨4, ![1, c, h, w]⟩ : Shape).ShapeCasts ⟨3, ![c, h, w]⟩)
    (h2 : (⟨3, ![c, h, w]⟩ : Shape).ShapeCasts ⟨5, ![1, c, 1, h, w]⟩)
    (x : (⟨5, ![1, c, 1, h, w]⟩ : Shape).Idx) (k : (⟨4, ![1, c, h, w]⟩ : Shape).Idx)
    (e1 : (k 1).val = (x 1).val) (e2 : (k 2).val = (x 3).val) (e3 : (k 3).val = (x 4).val) :
    shapeCast (⟨5, ![1, c, 1, h, w]⟩ : Shape) (shapeCast (⟨3, ![c, h, w]⟩ : Shape) v h1) h2 x = v k := by
  have hx0 : (x 0).val = 0 := by have h : (x 0).val < 1 := (x 0).isLt; omega
  have hx2 : (x 2).val = 0 := by have h : (x 2).val < 1 := (x 2).isLt; omega
  have hk0 : (k 0).val = 0 := by have h : (k 0).val < 1 := (k 0).isLt; omega
  -- the entry of the middle layout
  let y : (⟨3, ![c, h, w]⟩ : Shape).Idx := ix3 (⟨(x 1).val, (x 1).isLt⟩ : Fin c) (⟨(x 3).val, (x 3).isLt⟩ : Fin h)
    (⟨(x 4).val, (x 4).isLt⟩ : Fin w)
  have ey0 : (y 0).val = (x 1).val := rfl
  have ey1 : (y 1).val = (x 3).val := rfl
  have ey2 : (y 2).val = (x 4).val := rfl
  refine (shapeCast_apply _ h2 x y ?_).trans (shapeCast_apply v h1 y k ?_)
  · rw [Shape.rowMajor_val_three, Shape.rowMajor_val_five, ey0, ey1, ey2, hx0, hx2]
    show ((x 1).val * h + (x 3).val) * w + (x 4).val = (((0 * c + (x 1).val) * 1 + 0) * h + (x 3).val) * w + (x 4).val
    rw [Nat.zero_mul, Nat.zero_add, Nat.mul_one, Nat.add_zero]
  · rw [Shape.rowMajor_val_four, Shape.rowMajor_val_three, ey0, ey1, ey2, hk0, e1, e2, e3]
    show ((0 * c + (x 1).val) * h + (x 3).val) * w + (x 4).val = ((x 1).val * h + (x 3).val) * w + (x 4).val
    rw [Nat.zero_mul, Nat.zero_add]

end Cert.LibRelayout

end
-- ==== Proof.BodyPieces.lean ====
/-
  What the kernel body stores, piece by piece. The body fills its output block `[1, 8, 9, 224, 224]` with 21 stores:
  for each of the nine copies a rectangle of the input block `[1, 8, 224, 224]` moved by the copy's shift, and the one
  or two border strips (a row, a column) the moved rectangle leaves free, filled with zeros. Every one of the 21
  payloads is the restriction of ONE function of the block index — `Unfold.patches` of the input block, border value
  zero — to the store's rectangle.
-/
import proofs.«111906_j14559939133582_1_alg».proof.Proof.Gen.KernelIdeal.Frame.RunA
import proofs.«111906_j14559939133582_1_alg».proof.Proof.Unfold
import proofs.«111906_j14559939133582_1_alg».proof.Proof.LibRelayout
import Idealize.ShloMosaic.Lib.Pipeline.Value
import Idealize.ShloMosaic.Lib.Tactic

noncomputable section

namespace Cert.Unfold

open Idealize.ShloMosaic Idealize.ShloMosaic.ValueIdx

/-- A store of the border value into a rectangle that lies wholly outside the image's shifted copy agrees with
    `patches` there. The rectangle: copy planes `k … k + sk - 1`, rows from `h0`, columns from `w0`. -/
theorem border_piece {α : Type} (z : α) (x0 : (Img 1 8).Idx → α) (o0 o1 k h0 w0 s0 s1 sk sh sw : Nat)
    (inb : ∀ a, (![o0, o1, k, h0, w0] : Fin 5 → Nat) a + (![s0, s1, sk, sh, sw] : Fin 5 → Nat) a ≤ (Pat 1 8).size a)
    (w : (⟨5, ![s0, s1, sk, sh, sw]⟩ : Shape).Idx → α) (hw : ∀ x, w x = z)
    (hout : ∀ x2 x3 x4, x2 < sk → x3 < sh → x4 < sw → ¬Inside (k + x2) (h0 + x3) (w0 + x4)) :
    ∀ x, w x = patches z x0 ((Rect.unit (s := Pat 1 8) ![o0, o1, k, h0, w0] ![s0, s1, sk, sh, sw] inb).emb x) := by
  intro x
  rw [hw x]
  refine (patches_of_not_inside z x0 _ ?_).symm
  have h := hout (x 2).val (x 3).val (x 4).val (x 2).isLt (x 3).isLt (x 4).isLt
  show ¬Inside (k + 1 * (x 2).val) (h0 + 1 * (x 3).val) (w0 + 1 * (x 4).val)
  rw [Nat.one_mul, Nat.one_mul, Nat.one_mul]
  exact h

/-- A store, into copy plane `k` at rows from `dh` and columns from `dw`, of the `sh x sw` rectangle of the input block
    at rows from `so2` and columns from `so3` (loaded as `[1, 8, sh, sw]`, handled as `[8, sh, sw]`, stored as
    `[1, 8, 1, sh, sw]`) agrees with `patches` when the rectangle lies inside the copy's image part and the source is one
    row and column back from the copy's shift. -/
theorem copy_piece {Val : EltTy → Type} {e : EltTy} (z : Val e) (x0 : (Img 1 8).Idx → Val e) (k dh dw sh sw so2 so3 : Nat)
    (inb5 : ∀ a, (![0, 0, k, dh, dw] : Fin 5 → Nat) a + (![1, 8, 1, sh, sw] : Fin 5 → Nat) a ≤ (Pat 1 8).size a)
    (inb4 : ∀ a, (![0, 0, so2, so3] : Fin 4 → Nat) a + (![1, 8, sh, sw] : Fin 4 → Nat) a ≤ (Img 1 8).size a)
    (h1 : (⟨4, ![1, 8, sh, sw]⟩ : Shape).ShapeCasts ⟨3, ![8, sh, sw]⟩)
    (h2 : (⟨3, ![8, sh, sw]⟩ : Shape).ShapeCasts ⟨5, ![1, 8, 1, sh, sw]⟩)
    (hin : ∀ x3 x4, x3 < sh → x4 < sw → Inside k (dh + x3) (dw + x4))
    (hrow : so2 + 1 = dh + k / 3) (hcol : so3 + 1 = dw + k % 3) :
    ∀ x, shapeCast (⟨5, ![1, 8, 1, sh, sw]⟩ : Shape) (shapeCast (⟨3, ![8, sh, sw]⟩ : Shape)
          (View.ld x0 (Rect.unit (s := Img 1 8) ![0, 0, so2, so3] ![1, 8, sh, sw] inb4)) h1) h2 x
      = patches z x0 ((Rect.unit (s := Pat 1 8) ![0, 0, k, dh, dw] ![1, 8, 1, sh, sw] inb5).emb x) := by
  intro x
  have hx0 : (x 0).val = 0 := by have h : (x 0).val < 1 := (x 0).isLt; omega
  have hx2 : (x 2).val = 0 := by have h : (x 2).val < 1 := (x 2).isLt; omega
  have b1 : (x 1).val < 8 := (x 1).isLt
  have b3 : (x 3).val < sh := (x 3).isLt
  have b4 : (x 4).val < sw := (x 4).isLt
  -- the entry of the loaded rectangle
  let q : (⟨4, ![1, 8, sh, sw]⟩ : Shape).Idx := ix4 (⟨0, Nat.one_pos⟩ : Fin 1) (⟨(x 1).val, b1⟩ : Fin 8)
    (⟨(x 3).val, b3⟩ : Fin sh) (⟨(x 4).val, b4⟩ : Fin sw)
  refine (Cert.LibRelayout.relayout_apply _ h1 h2 x q rfl rfl rfl).trans ?_
  have hI := hin (x 3).val (x 4).val b3 b4
  refine (patches_of_inside z x0 _ _ ?_ ?_ ?_ ?_ ?_).symm
  · show Inside (k + 1 * (x 2).val) (dh + 1 * (x 3).val) (dw + 1 * (x 4).val)
    have e2 : k + 1 * (x 2).val = k := by omega
    have e3 : dh + 1 * (x 3).val = dh + (x 3).val := by omega
    have e4 : dw + 1 * (x 4).val = dw + (x 4).val := by omega
    rw [e2, e3, e4]
    exact hI
  · show 0 + 1 * 0 = 0 + 1 * (x 0).val
    rw [hx0]
  · show 0 + 1 * (x 1).val = 0 + 1 * (x 1).val
    rfl
  · show so2 + 1 * (x 3).val + 1 = dh + 1 * (x 3).val + (k + 1 * (x 2).val) / 3
    rw [hx2]; omega
  · show so3 + 1 * (x 4).val + 1 = dw + 1 * (x 4).val + (k + 1 * (x 2).val) % 3
    rw [hx2]; omega

/-- A property of every piece of a list, one piece at a time. -/
theorem forall_piece_cons {β : Type} {P : β → Prop} {p : β} {L : List β} (hp : P p) (hL : ∀ q ∈ L, P q) :
    ∀ q ∈ p :: L, P q := List.forall_mem_cons.mpr ⟨hp, hL⟩

end Cert.Unfold

namespace Cert.KernelIdeal.BodyValue

open Cert.KernelIdeal Cert.KernelIdeal.Gen Idealize.ShloMosaic Idealize.ShloMosaic.TcCoe Idealize.SL.Sem
open Cert.Unfold

variable {F : FTy → Type} [FloatOps F]

/-- The zero the body's border stores write. -/
abbrev zero : Elt F .f32 := Scalar.ofBits .f32 0x00000000#32

/-- Each of the 21 stores writes `patches zero x0` restricted to its rectangle. Last store first: copy 8 (shift down
    and right: its last row and last column are border), 7 (down: last row), 6 (down and left: last row, first column),
    5 (right: last column), 4 (no shift), 3 (left: first column), 2 (up and right: first row, last column), 1 (up:
    first row), 0 (up and left: first row, first column). -/
theorem pieces_eq (c : Dev nD) (i : grid0.Coords) (a2 : Memref sig .tc .vmem S1x8x224x224 .f32) (h2 : a2.IsWhole)
    (a3 : Memref sig .tc .vmem S1x8x9x224x224 .f32) (h3 : a3.IsWhole) (x0 : Vec F S1x8x224x224 .f32) :
    ∀ p ∈ (kernelRun0_A c i a2 h2 a3 h3 x0).1, ∀ x : p.1.shape.Idx,
      p.2 x = patches (zero (F := F)) x0 (p.1.emb x) := by
  unfold kernelRun0_A
  dsimp only
  sl_unfold_words
  simp only [View.readAt_eq_ld, h2.read_unread]
  -- copy 8
  apply forall_piece_cons
  · exact copy_piece zero x0 8 0 0 223 223 1 1 (by decide) (by decide) (by decide) (by decide)
      (fun x3 x4 h3 h4 => by unfold Inside; omega) (by omega) (by omega)
  apply forall_piece_cons
  · exact border_piece zero x0 0 0 8 0 223 1 8 1 224 1 (by decide) _ (fun _ => rfl)
      (fun x2 x3 x4 h2 h3 h4 => by unfold Inside; omega)
  apply forall_piece_cons
  · exact border_piece zero x0 0 0 8 223 0 1 8 1 1 224 (by decide) _ (fun _ => rfl)
      (fun x2 x3 x4 h2 h3 h4 => by unfold Inside; omega)
  -- copy 7
  apply forall_piece_cons
  · exact copy_piece zero x0 7 0 0 223 224 1 0 (by decide) (by decide) (by decide) (by decide)
      (fun x3 x4 h3 h4 => by unfold Inside; omega) (by omega) (by omega)
  apply forall_piece_cons
  · exact border_piece zero x0 0 0 7 223 0 1 8 1 1 224 (by decide) _ (fun _ => rfl)
      (fun x2 x3 x4 h2 h3 h4 => by unfold Inside; omega)
  -- copy 6
  apply forall_piece_cons
  · exact copy_piece zero x0 6 0 1 223 223 1 0 (by decide) (by decide) (by decide) (by decide)
      (fun x3 x4 h3 h4 => by unfold Inside; omega) (by omega) (by omega)
  apply forall_piece_cons
  · exact border_piece zero x0 0 0 6 0 0 1 8 1 224 1 (by decide) _ (fun _ => rfl)
      (fun x2 x3 x4 h2 h3 h4 => by unfold Inside; omega)
  apply forall_piece_cons
  · exact border_piece zero x0 0 0 6 223 0 1 8 1 1 224 (by decide) _ (fun _ => rfl)
      (fun x2 x3 x4 h2 h3 h4 => by unfold Inside; omega)
  -- copy 5
  apply forall_piece_cons
  · exact copy_piece zero x0 5 0 0 224 223 0 1 (by decide) (by decide) (by decide) (by decide)
      (fun x3 x4 h3 h4 => by unfold Inside; omega) (by omega) (by omega)
  apply forall_piece_cons
  · exact border_piece zero x0 0 0 5 0 223 1 8 1 224 1 (by decide) _ (fun _ => rfl)
      (fun x2 x3 x4 h2 h3 h4 => by unfold Inside; omega)
  -- copy 4
  apply forall_piece_cons
  · exact copy_piece zero x0 4 0 0 224 224 0 0 (by decide) (by decide) (by decide) (by decide)
      (fun x3 x4 h3 h4 => by unfold Inside; omega) (by omega) (by omega)
  -- copy 3
  apply forall_piece_cons
  · exact copy_piece zero x0 3 0 1 224 223 0 0 (by decide) (by decide) (by decide) (by decide)
      (fun x3 x4 h3 h4 => by unfold Inside; omega) (by omega) (by omega)
  apply forall_piece_cons
  · exact border_piece zero x0 0 0 3 0 0 1 8 1 224 1 (by decide) _ (fun _ => rfl)
      (fun x2 x3 x4 h2 h3 h4 => by unfold Inside; omega)
  -- copy 2
  apply forall_piece_cons
  · exact copy_piece zero x0 2 1 0 223 223 0 1 (by decide) (by decide) (by decide) (by decide)
      (fun x3 x4 h3 h4 => by unfold Inside; omega) (by omega) (by omega)
  apply forall_piece_cons
  · exact border_piece zero x0 0 0 2 0 223 1 8 1 224 1 (by decide) _ (fun _ => rfl)
      (fun x2 x3 x4 h2 h3 h4 => by unfold Inside; omega)
  apply forall_piece_cons
  · exact border_piece zero x0 0 0 2 0 0 1 8 1 1 224 (by decide) _ (fun _ => rfl)
      (fun x2 x3 x4 h2 h3 h4 => by unfold Inside; omega)
  -- copy 1
  apply forall_piece_cons
  · exact copy_piece zero x0 1 1 0 223 224 0 0 (by decide) (by decide) (by decide) (by decide)
      (fun x3 x4 h3 h4 => by unfold Inside; omega) (by omega) (by omega)
  apply forall_piece_cons
  · exact border_piece zero x0 0 0 1 0 0 1 8 1 1 224 (by decide) _ (fun _ => rfl)
      (fun x2 x3 x4 h2 h3 h4 => by unfold Inside; omega)
  -- copy 0
  apply forall_piece_cons
  · exact copy_piece zero x0 0 1 1 223 223 0 0 (by decide) (by decide) (by decide) (by decide)
      (fun x3 x4 h3 h4 => by unfold Inside; omega) (by omega) (by omega)
  apply forall_piece_cons
  · exact border_piece zero x0 0 0 0 0 0 1 8 1 224 1 (by decide) _ (fun _ => rfl)
      (fun x2 x3 x4 h2 h3 h4 => by unfold Inside; omega)
  apply forall_piece_cons
  · exact border_piece zero x0 0 0 0 0 0 1 8 1 1 224 (by decide) _ (fun _ => rfl)
      (fun x2 x3 x4 h2 h3 h4 => by unfold Inside; omega)
  exact fun _ h => absurd h List.not_mem_nil

end Cert.KernelIdeal.BodyValue

end
-- ==== Proof.ArrayValue.lean ====
/-
  From the output block to the output array, and through the host's reshape. At grid point `(b, g)` the kernel reads
  images `8g … 8g + 7` of batch entry `b` and writes their nine copies each; unfolding a block of images is the same
  block of the unfolded stack (`Unfold.patches_restrict`), the 64 blocks tile the `[8, 64, 9, 224, 224]` array, so the
  array ends holding `Unfold.patches` of the whole argument, border value zero; the program's result is that array
  re-read in row-major order as `[8, 576, 50176]`.
-/
import proofs.«111906_j14559939133582_1_alg».proof.Proof.FrameKernelIdeal
import proofs.«111906_j14559939133582_1_alg».proof.Proof.BodyPieces
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.GenP Idealize.ShloMosaic Idealize.ShloMosaic.TcCoe Idealize.SL.Sem
open Idealize.ShloMosaic.Pipeline (Dat)
open Cert.Unfold Cert.KernelIdeal.BodyValue

variable {F : FTy → Type} [FloatOps F]
variable (m : (ℓ : Loc nD τ sig) → Buf (Elt F) ℓ) (ρ : Dev nD → PrngReg)

/-- What the body leaves in its output block: the nine copies of each of the input block's eight images. The 21
    stores cover the block, each writing `patches` restricted to its rectangle. -/
theorem out_eq (c : Dev nD) (i : grid0.Coords) (a2 : Memref sig .tc .vmem S1x8x224x224 .f32) (h2 : a2.IsWhole)
    (a3 : Memref sig .tc .vmem S1x8x9x224x224 .f32) (h3 : a3.IsWhole) (x0 : Vec F S1x8x224x224 .f32) :
    out0_A_1 c i a2 h2 a3 h3 x0 = patches (zero (F := F)) x0 := by
  unfold out0_A_1
  rw [View.read_writes_junk_eq_canon]
  funext y
  exact View.canon_apply_of_pieces (patches (zero (F := F)) x0) _ (pieces_eq c i a2 h2 a3 h3 x0) y
    (cover0_A_1 c i a2 h2 a3 h3 x0 y)

/-- The printed index maps over the grid: the input block and the output block sit at the same batch entry and the same
    group of eight channels, and at block index zero on every other axis. -/
theorem idx_facts : ∀ t : Fin cfg0.N,
    win0_0.index t (0 : Fin 4) = win0_1.index t (0 : Fin 5) ∧ win0_0.index t (1 : Fin 4) = win0_1.index t (1 : Fin 5)
    ∧ win0_0.index t (2 : Fin 4) = 0 ∧ win0_0.index t (3 : Fin 4) = 0
    ∧ win0_1.index t (2 : Fin 5) = 0 ∧ win0_1.index t (3 : Fin 5) = 0 ∧ win0_1.index t (4 : Fin 5) = 0 :=
  (by decide +kernel : ∀ t : Fin grid0.N, _)

/-- Every (batch entry, channel group) is some grid point's. -/
theorem idx_onto : ∀ (q0 : Fin 8) (q1 : Fin 8), ∃ t : Fin cfg0.N, win0_1.index t = ![q0.val, q1.val, 0, 0, 0] :=
  (by decide +kernel : ∀ (q0 : Fin 8) (q1 : Fin 8), ∃ t : Fin grid0.N, win0_1.index t = ![q0.val, q1.val, 0, 0, 0])

/-- What point `t` writes back is block `t` of the unfold of the whole argument. -/
theorem flushed_eq (c : Dev nD) (t : Fin cfg0.N) :
    (dats m 0 c).flushed 1 t = ((cfg0.win 1).blk t).view.read (Elt F) (patches (zero (F := F)) (V m c main_arg0)) := by
  show (cfg0.win 1).cut (grid0.coords t) ((dats m 0 c).after 1 t) = _
  rw [after0_1]
  unfold outsAt0
  rw [out_eq]
  obtain ⟨e0, e1, e2, e3, e4, e5, e6⟩ := idx_facts t
  funext j
  show patches (zero (F := F)) (fun y => V m c main_arg0 (((cfg0.win 0).blk t).view.emb y)) j
    = patches (zero (F := F)) (V m c main_arg0) (((cfg0.win 1).blk t).view.emb j)
  exact patches_restrict (zero (F := F)) (V m c main_arg0) (fun y => ((cfg0.win 0).blk t).view.emb y)
    (fun j => ((cfg0.win 1).blk t).view.emb j) (win0_1.index t (0 : Fin 5) * 1) (win0_1.index t (1 : Fin 5) * 8)
    (fun y => by show win0_0.index t (0 : Fin 4) * 1 + 1 * (y 0).val = win0_1.index t (0 : Fin 5) * 1 + (y 0).val; rw [e0]; omega)
    (fun y => by show win0_0.index t (1 : Fin 4) * 8 + 1 * (y 1).val = win0_1.index t (1 : Fin 5) * 8 + (y 1).val; rw [e1]; omega)
    (fun y => by show win0_0.index t (2 : Fin 4) * 224 + 1 * (y 2).val = (y 2).val; rw [e2]; omega)
    (fun y => by show win0_0.index t (3 : Fin 4) * 224 + 1 * (y 3).val = (y 3).val; rw [e3]; omega)
    (fun j => by show win0_1.index t (0 : Fin 5) * 1 + 1 * (j 0).val = win0_1.index t (0 : Fin 5) * 1 + (j 0).val; omega)
    (fun j => by show win0_1.index t (1 : Fin 5) * 8 + 1 * (j 1).val = win0_1.index t (1 : Fin 5) * 8 + (j 1).val; omega)
    (fun j => by show win0_1.index t (2 : Fin 5) * 9 + 1 * (j 2).val = (j 2).val; rw [e4]; omega)
    (fun j => by show win0_1.index t (3 : Fin 5) * 224 + 1 * (j 3).val = (j 3).val; rw [e5]; omega)
    (fun j => by show win0_1.index t (4 : Fin 5) * 224 + 1 * (j 4).val = (j 4).val; rw [e6]; omega)
    j

/-- An index of the array is in point `t`'s block iff each coordinate is in the block's range on its axis. -/
theorem mem_blk (t : Fin cfg0.N) (i : S8x64x9x224x224.Idx) :
    i ∈ ((cfg0.win 1).blk t).view.set ↔ ∀ a : Fin 5, win0_1.index t a * S1x8x9x224x224.size a ≤ (i a).val
      ∧ (i a).val < win0_1.index t a * S1x8x9x224x224.size a + S1x8x9x224x224.size a := by
  show i ∈ ((View.whole main_v0).slice (win0_1.rect t)).set ↔ _
  rw [View.set_slice_whole, Rect.mem_set_unit]
  exact Iff.rfl

/-- The blocks tile the array: entry `(b, ch, k, h, w)` is in the block of batch entry `b`, channel group `ch / 8`. -/
theorem cover (i : S8x64x9x224x224.Idx) :
    ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 9 := (i 2).isLt
  have hi3 : (i 3).val < 224 := (i 3).isLt
  have hi4 : (i 4).val < 224 := (i 4).isLt
  obtain ⟨t, ht⟩ := idx_onto ⟨(i 0).val, hi0⟩ ⟨(i 1).val / 8, by omega⟩
  have q0 : win0_1.index t (0 : Fin 5) = (i 0).val := congrFun ht 0
  have q1 : win0_1.index t (1 : Fin 5) = (i 1).val / 8 := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 8 ≤ (i 1).val ∧ (i 1).val < win0_1.index t (1 : Fin 5) * 8 + 8; omega
  | ⟨2, _⟩ => show win0_1.index t (2 : Fin 5) * 9 ≤ (i 2).val ∧ (i 2).val < win0_1.index t (2 : Fin 5) * 9 + 9; omega
  | ⟨3, _⟩ => show win0_1.index t (3 : Fin 5) * 224 ≤ (i 3).val ∧ (i 3).val < win0_1.index t (3 : Fin 5) * 224 + 224; omega
  | ⟨4, _⟩ => show win0_1.index t (4 : Fin 5) * 224 ≤ (i 4).val ∧ (i 4).val < win0_1.index t (4 : Fin 5) * 224 + 224; omega

/-- The output array after the run: the unfold of the argument array, border value zero. -/
theorem final (c : Dev nD) :
    (dats m 0 c).arrAt 1 cfg0.N = patches (zero (F := F)) (m ((c : Thread nD τ).loc main_arg0)) :=
  (dats m 0 c).arrAt_eq_of_cover 1 (patches (zero (F := F)) (V m c main_arg0)) (fun t _ => flushed_eq m c t) cover

/-- The program's result buffer is no array of the pipeline: the host's reshape writes it after the region. -/
theorem result_mem : main_v1 ∈ Pipeline.restRefs sig (cfgs 0).spec :=
  Pipeline.mem_restRefs_of main_v1 rfl (fun w => by fin_cases w <;> decide)

/-- The region leaves the output array at the unfold of the argument. -/
theorem region_out (c : Dev nD) :
    Pipeline.withArrays (cfgs 0).spec c (V0 m c) (fun w => (dats m 0 c).arrAt w (cfgs 0).N) (Proc.devRef .tc main_v0)
      = patches (zero (F := F)) (m ((c : Thread nD τ).loc main_arg0)) :=
  (Pipeline.withArrays_arr spec0 launch0.win.arr_inj c _ _ 1).trans (final m c)

/-- What the host's reshape leaves in the result buffer: the output array in row-major order as `[8, 576, 50176]`. -/
theorem tail_eq (c : Dev nD) :
    Pipeline.afterTail₀ cfgs (dats m) 0 (V0 m) [hostOps1] c main_v1
      = shapeCast S8x576x50176 (patches (zero (F := F)) (m ((c : Thread nD τ).loc main_arg0)))
          shapeCasts_S8x64x9x224x224_S8x576x50176 := by
  unfold Pipeline.afterTail₀
  show StableHlo.after hostOps1 _ (Proc.devRef .tc main_v1) = _
  after_results
  exact congrArg (fun X : S8x64x9x224x224.Idx → Elt F .f32 =>
    shapeCast S8x576x50176 X shapeCasts_S8x64x9x224x224_S8x576x50176) (region_out m c)

/-- The run, read: the result at the reshaped unfold of the argument, the argument unchanged. -/
theorem run : θ_run defs (onTc (τ := τ) (main (F := F))) ⟨m, fun _ => 0, ρ⟩ fun r => ∀ c : Dev nD,
      r.2.mem ((c.tc : Thread nD τ).loc main_v1)
        = shapeCast S8x576x50176 (patches (zero (F := F)) (m ((c : Thread nD τ).loc main_arg0)))
            shapeCasts_S8x64x9x224x224_S8x576x50176
      ∧ r.2.mem ((c.tc : Thread nD τ).loc main_arg0) = m ((c.tc : Thread nD τ).loc main_arg0) :=
  (θ_run defs _ _).mono (fun r h c => ⟨((h c).2 main_v1 result_mem).trans (tail_eq m c),
      ((h c).1 0).trans (((dats m 0 c).arrAt_in 0 rfl _).trans ((A_eq m c 0).trans (V_main_arg0 m c)))⟩)
    (run_main m ρ)

end Cert.KernelIdeal.ArrayValue

end
-- ==== Proof.RefPatches.lean ====
/-
  The host program, read: it pads every image with a one-pixel border of the padding value, takes the nine 224 x 224
  windows of the padded image at offsets `(ki, kj)`, `ki, kj ∈ {0, 1, 2}`, and stacks them along a new axis after the
  channel. Window `(ki, kj)` at `(h, w)` is the padded image at `(h + ki, w + kj)`, that is the image at
  `(h + ki - 1, w + kj - 1)` where that exists and the padding value elsewhere: the stack is `Unfold.patches`.
-/
import proofs.«111906_j14559939133582_1_alg».proof.Proof.Gen.ReferenceIdeal.Read
import proofs.«111906_j14559939133582_1_alg».proof.Proof.Unfold
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.ValueIdx
open Cert.Unfold

variable {F : FTy → Type} [FloatOps F]

/-- The value the host pads with: the integer constant 0 converted to f32. -/
abbrev border : Elt F .f32 := val_main_call0_v0 (F := F) (Shape.Idx.first h_S_)

/-- ONE window of the padded stack, with the unit axis the stacking wants, is one copy of `patches`: window `(ki, kj)`
    is copy `3·ki + kj`. -/
theorem window_apply (x0 : S8x64x224x224.Idx → Elt F .f32) (ki kj : Nat) (hki : ki ≤ 2) (hkj : kj ≤ 2)
    (hs : S8x64x226x226.Slices ![0, 0, ki, kj] S8x64x224x224)
    (j : S8x64x9x224x224.Idx) (hj2 : (j 2).val = 3 * ki + kj) (i : S8x64x1x224x224.Idx)
    (hi0 : (i 0).val = (j 0).val) (hi1 : (i 1).val = (j 1).val) (hi3 : (i 3).val = (j 3).val)
    (hi4 : (i 4).val = (j 4).val) :
    broadcastInDim S8x64x1x224x224 ![0, 1, 3, 4] bcast_S8x64x224x224_S8x64x1x224x224_0_1_3_4
        (extractStridedSlice S8x64x224x224 ![0, 0, ki, kj] (val_main_v0 (F := F) x0) hs) i
      = patches (border (F := F)) x0 j := by
  have b0 : (j 0).val < 8 := (j 0).isLt
  have b1 : (j 1).val < 64 := (j 1).isLt
  have b3 : (j 3).val < 224 := (j 3).isLt
  have b4 : (j 4).val < 224 := (j 4).isLt
  -- the entry of the window, and of the padded stack, that this entry of the copy is
  let q : S8x64x224x224.Idx := ix4 (⟨(j 0).val, b0⟩ : Fin 8) (⟨(j 1).val, b1⟩ : Fin 64) (⟨(j 3).val, b3⟩ : Fin 224)
    (⟨(j 4).val, b4⟩ : Fin 224)
  let p : S8x64x226x226.Idx := ix4 (⟨(j 0).val, b0⟩ : Fin 8) (⟨(j 1).val, b1⟩ : Fin 64)
    (⟨ki + (j 3).val, by omega⟩ : Fin 226) (⟨kj + (j 4).val, by omega⟩ : Fin 226)
  refine (broadcastInDim_apply _ bcast_S8x64x224x224_S8x64x1x224x224_0_1_3_4 _ i q (fun a => match a with
    | ⟨0, _⟩ => by show (j 0).val = if (8 : Nat) = 1 then 0 else (i 0).val; rw [if_neg (by decide), hi0]
    | ⟨1, _⟩ => by show (j 1).val = if (64 : Nat) = 1 then 0 else (i 1).val; rw [if_neg (by decide), hi1]
    | ⟨2, _⟩ => by show (j 3).val = if (224 : Nat) = 1 then 0 else (i 3).val; rw [if_neg (by decide), hi3]
    | ⟨3, _⟩ => by show (j 4).val = if (224 : Nat) = 1 then 0 else (i 4).val; rw [if_neg (by decide), hi4])).trans ?_
  refine (extractStridedSlice_apply ![0, 0, ki, kj] _ hs q p (fun a => match a with
    | ⟨0, _⟩ => by show (j 0).val = 0 + (j 0).val; omega
    | ⟨1, _⟩ => by show (j 1).val = 0 + (j 1).val; omega
    | ⟨2, _⟩ => by show ki + (j 3).val = ki + (j 3).val; rfl
    | ⟨3, _⟩ => by show kj + (j 4).val = kj + (j 4).val; rfl)).trans ?_
  have hdiv : (j 2).val / 3 = ki := by omega
  have hmod : (j 2).val % 3 = kj := by omega
  unfold val_main_v0
  by_cases hin : Inside (j 2).val (j 3).val (j 4).val
  · have hb : (1 ≤ (j 3).val + (j 2).val / 3 ∧ (j 3).val + (j 2).val / 3 ≤ 224)
        ∧ (1 ≤ (j 4).val + (j 2).val % 3 ∧ (j 4).val + (j 2).val % 3 ≤ 224) := hin
    let k : S8x64x224x224.Idx := ix4 (⟨(j 0).val, b0⟩ : Fin 8) (⟨(j 1).val, b1⟩ : Fin 64)
      (⟨(j 3).val + ki - 1, by omega⟩ : Fin 224) (⟨(j 4).val + kj - 1, by omega⟩ : Fin 224)
    refine (pad_apply_of_inside ![0, 0, 1, 1] ![0, 0, 1, 1] ![0, 0, 0, 0] x0 _
      pads_S8x64x224x224_S8x64x226x226_000_000_110_110 h_S_ p k (fun a => match a with
      | ⟨0, _⟩ => by show (j 0).val = 0 + (j 0).val * (0 + 1); omega
      | ⟨1, _⟩ => by show (j 1).val = 0 + (j 1).val * (0 + 1); omega
      | ⟨2, _⟩ => by show ki + (j 3).val = 1 + ((j 3).val + ki - 1) * (0 + 1); omega
      | ⟨3, _⟩ => by show kj + (j 4).val = 1 + ((j 4).val + kj - 1) * (0 + 1); omega)).trans ?_
    exact (patches_of_inside _ x0 j k hin rfl rfl
      (by show (j 3).val + ki - 1 + 1 = (j 3).val + (j 2).val / 3; omega)
      (by show (j 4).val + kj - 1 + 1 = (j 4).val + (j 2).val % 3; omega)).symm
  · have hb : ¬((1 ≤ (j 3).val + (j 2).val / 3 ∧ (j 3).val + (j 2).val / 3 ≤ 224)
        ∧ (1 ≤ (j 4).val + (j 2).val % 3 ∧ (j 4).val + (j 2).val % 3 ≤ 224)) := hin
    rw [patches_of_not_inside _ x0 j hin]
    by_cases hrow : 1 ≤ (j 3).val + ki ∧ (j 3).val + ki ≤ 224
    · exact pad_apply_of_not_inside ![0, 0, 1, 1] ![0, 0, 1, 1] ![0, 0, 0, 0] x0 _
        pads_S8x64x224x224_S8x64x226x226_000_000_110_110 h_S_ p (3 : Fin 4) (by
          show ¬(1 ≤ kj + (j 4).val ∧ (kj + (j 4).val - 1) % (0 + 1) = 0 ∧ (kj + (j 4).val - 1) / (0 + 1) < 224)
          rintro ⟨h1, -, h3⟩
          rw [Nat.zero_add, Nat.div_one] at h3
          omega)
    · exact pad_apply_of_not_inside ![0, 0, 1, 1] ![0, 0, 1, 1] ![0, 0, 0, 0] x0 _
        pads_S8x64x224x224_S8x64x226x226_000_000_110_110 h_S_ p (2 : Fin 4) (by
          show ¬(1 ≤ ki + (j 3).val ∧ (ki + (j 3).val - 1) % (0 + 1) = 0 ∧ (ki + (j 3).val - 1) / (0 + 1) < 224)
          rintro ⟨h1, -, h3⟩
          rw [Nat.zero_add, Nat.div_one] at h3
          omega)

/-- The stack of the nine windows is the unfold of the argument, with the host's padding value at the border. -/
theorem stack_eq (x0 : S8x64x224x224.Idx → Elt F .f32) :
    val_main_v19 (F := F) x0 = patches (border (F := F)) x0 := by
  funext j
  have b0 : (j 0).val < 8 := (j 0).isLt
  have b1 : (j 1).val < 64 := (j 1).isLt
  have b3 : (j 3).val < 224 := (j 3).isLt
  have b4 : (j 4).val < 224 := (j 4).isLt
  have h9 : (j 2).val < 9 := (j 2).isLt
  -- the entry of a window [8, 64, 1, 224, 224] that this entry of the stack is
  let i : S8x64x1x224x224.Idx := ix5 (⟨(j 0).val, b0⟩ : Fin 8) (⟨(j 1).val, b1⟩ : Fin 64) (⟨0, Nat.one_pos⟩ : Fin 1)
    (⟨(j 3).val, b3⟩ : Fin 224) (⟨(j 4).val, b4⟩ : Fin 224)
  have hi : ∀ b : Fin S8x64x1x224x224.rank, b.cast (rfl : S8x64x1x224x224.rank = S8x64x9x224x224.rank) ≠ (2 : Fin 5) →
      (i b).val = (j (b.cast (rfl : S8x64x1x224x224.rank = S8x64x9x224x224.rank))).val := fun b hb => match b with
    | ⟨0, _⟩ => rfl
    | ⟨1, _⟩ => rfl
    | ⟨2, _⟩ => absurd rfl hb
    | ⟨3, _⟩ => rfl
    | ⟨4, _⟩ => rfl
  unfold val_main_v19
  generalize hk : (j 2).val = k at h9
  interval_cases k
  · refine Eq.trans (concatenate_apply_piece (t := S8x64x9x224x224) (2 : Fin 5) _ _ j 0 ?_ S8x64x1x224x224
      (val_main_v10 (F := F) x0) ?_ rfl 0 ?_ i hi ?_) ?_
    · exact (by decide : 0 < 9)
    · rfl
    · rfl
    · show 0 + 0 = (j 2).val; omega
    · exact window_apply x0 0 0 (by omega) (by omega) _ j (by omega) i rfl rfl rfl rfl
  · refine Eq.trans (concatenate_apply_piece (t := S8x64x9x224x224) (2 : Fin 5) _ _ j 1 ?_ S8x64x1x224x224
      (val_main_v11 (F := F) x0) ?_ rfl 1 ?_ i hi ?_) ?_
    · exact (by decide : 1 < 9)
    · rfl
    · rfl
    · show 1 + 0 = (j 2).val; omega
    · exact window_apply x0 0 1 (by omega) (by omega) _ j (by omega) i rfl rfl rfl rfl
  · refine Eq.trans (concatenate_apply_piece (t := S8x64x9x224x224) (2 : Fin 5) _ _ j 2 ?_ S8x64x1x224x224
      (val_main_v12 (F := F) x0) ?_ rfl 2 ?_ i hi ?_) ?_
    · exact (by decide : 2 < 9)
    · rfl
    · rfl
    · show 2 + 0 = (j 2).val; omega
    · exact window_apply x0 0 2 (by omega) (by omega) _ j (by omega) i rfl rfl rfl rfl
  · refine Eq.trans (concatenate_apply_piece (t := S8x64x9x224x224) (2 : Fin 5) _ _ j 3 ?_ S8x64x1x224x224
      (val_main_v13 (F := F) x0) ?_ rfl 3 ?_ i hi ?_) ?_
    · exact (by decide : 3 < 9)
    · rfl
    · rfl
    · show 3 + 0 = (j 2).val; omega
    · exact window_apply x0 1 0 (by omega) (by omega) _ j (by omega) i rfl rfl rfl rfl
  · refine Eq.trans (concatenate_apply_piece (t := S8x64x9x224x224) (2 : Fin 5) _ _ j 4 ?_ S8x64x1x224x224
      (val_main_v14 (F := F) x0) ?_ rfl 4 ?_ i hi ?_) ?_
    · exact (by decide : 4 < 9)
    · rfl
    · rfl
    · show 4 + 0 = (j 2).val; omega
    · exact window_apply x0 1 1 (by omega) (by omega) _ j (by omega) i rfl rfl rfl rfl
  · refine Eq.trans (concatenate_apply_piece (t := S8x64x9x224x224) (2 : Fin 5) _ _ j 5 ?_ S8x64x1x224x224
      (val_main_v15 (F := F) x0) ?_ rfl 5 ?_ i hi ?_) ?_
    · exact (by decide : 5 < 9)
    · rfl
    · rfl
    · show 5 + 0 = (j 2).val; omega
    · exact window_apply x0 1 2 (by omega) (by omega) _ j (by omega) i rfl rfl rfl rfl
  · refine Eq.trans (concatenate_apply_piece (t := S8x64x9x224x224) (2 : Fin 5) _ _ j 6 ?_ S8x64x1x224x224
      (val_main_v16 (F := F) x0) ?_ rfl 6 ?_ i hi ?_) ?_
    · exact (by decide : 6 < 9)
    · rfl
    · rfl
    · show 6 + 0 = (j 2).val; omega
    · exact window_apply x0 2 0 (by omega) (by omega) _ j (by omega) i rfl rfl rfl rfl
  · refine Eq.trans (concatenate_apply_piece (t := S8x64x9x224x224) (2 : Fin 5) _ _ j 7 ?_ S8x64x1x224x224
      (val_main_v17 (F := F) x0) ?_ rfl 7 ?_ i hi ?_) ?_
    · exact (by decide : 7 < 9)
    · rfl
    · rfl
    · show 7 + 0 = (j 2).val; omega
    · exact window_apply x0 2 1 (by omega) (by omega) _ j (by omega) i rfl rfl rfl rfl
  · refine Eq.trans (concatenate_apply_piece (t := S8x64x9x224x224) (2 : Fin 5) _ _ j 8 ?_ S8x64x1x224x224
      (val_main_v18 (F := F) x0) ?_ rfl 8 ?_ i hi ?_) ?_
    · exact (by decide : 8 < 9)
    · rfl
    · rfl
    · show 8 + 0 = (j 2).val; omega
    · exact window_apply x0 2 2 (by omega) (by omega) _ j (by omega) i rfl rfl rfl rfl

/-- At the exact instance the padding value is zero. -/
theorem border_ideal : (border (F := Ideal) : EReal) = 0 := by
  show (((0#32 : BitVec 32).toInt : ℝ) : EReal) = 0
  simp

end Cert.ReferenceIdeal.RefValue

end
-- ==== Proof.lean ====
/-
  The certificate of a 3 x 3 unfold (im2col, stride 1, padding 1) of `x : f32[8, 64, 224, 224]`.

  Both programs move entries and compute nothing. The kernel writes, for each block of eight images, nine copies of
  each image shifted by `(ki - 1, kj - 1)`, `ki, kj ∈ {0, 1, 2}`, and zeros on the border strips a shifted copy leaves
  free; the host reshapes the `[8, 64, 9, 224, 224]` result to `[8, 576, 50176]`. The reference pads every image with a
  one-pixel border of zeros, takes the nine 224 x 224 windows of the padded image, stacks them after the channel axis
  and reshapes the same way. Both `[8, 64, 9, 224, 224]` arrays are ONE function of `x`, `Unfold.patches`: entry
  `(b, c, 3·ki + kj, h, w)` is `x (b, c, h + ki - 1, w + kj - 1)` where that position exists and the border value
  elsewhere (Proof/Unfold.lean). The kernel's side is Proof/BodyPieces.lean (each of the body's 21 stores writes that
  function restricted to its rectangle) and Proof/ArrayValue.lean (blocks to the array, then the reshape); the
  reference's side is Proof/RefPatches.lean (pad, slice, stack read at an index). The two border values — the kernel's
  literal `0.0`, the reference's integer `0` converted — are the real number zero. No law of arithmetic is used, and the
  precondition (finite inputs) is never opened: the equality holds at every extended real.
-/
import proofs.«111906_j14559939133582_1_alg».proof.Defs
import proofs.«111906_j14559939133582_1_alg».proof.Proof.Gen.Kernel
import proofs.«111906_j14559939133582_1_alg».proof.Proof.Gen.Kernel.Skeleton
import proofs.«111906_j14559939133582_1_alg».proof.Proof.Gen.Kernel.Launch
import proofs.«111906_j14559939133582_1_alg».proof.Proof.Gen.Kernel.Points
import proofs.«111906_j14559939133582_1_alg».proof.Proof.FrameKernel
import proofs.«111906_j14559939133582_1_alg».proof.Proof.Gen.KernelIdeal
import proofs.«111906_j14559939133582_1_alg».proof.Proof.Gen.KernelIdeal.Skeleton
import proofs.«111906_j14559939133582_1_alg».proof.Proof.Gen.KernelIdeal.Launch
import proofs.«111906_j14559939133582_1_alg».proof.Proof.Gen.KernelIdeal.Points
import proofs.«111906_j14559939133582_1_alg».proof.Proof.FrameKernelIdeal
import proofs.«111906_j14559939133582_1_alg».proof.Proof.Gen.ReferenceIdeal
import proofs.«111906_j14559939133582_1_alg».proof.Proof.Gen.ReferenceIdeal.Run
import proofs.«111906_j14559939133582_1_alg».proof.Proof.Gen.ReferenceIdeal.Read
import proofs.«111906_j14559939133582_1_alg».proof.Proof.Gen.Pre_finite_inputs
import proofs.«111906_j14559939133582_1_alg».proof.Proof.ArrayValue
import proofs.«111906_j14559939133582_1_alg».proof.Proof.RefPatches
import Idealize.ShloMosaic.Adequacy
import Idealize.ShloMosaic.Init
import Idealize.ShloMosaic.PureOps.Ideal.Laws

noncomputable section

namespace Cert.Proof

open Idealize.ShloMosaic Idealize.ShloMosaic.TcCoe Idealize.SL.Sem

/-- The kernel's border value, the literal `0.0`, is the real number zero. -/
theorem zero_ideal : (Cert.KernelIdeal.BodyValue.zero (F := Ideal) : EReal) = 0 := Ideal.ofBits_zero_f32

/-- The word-level kernel runs and keeps its argument: the generated frame. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and keeps its argument: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the unfold of the argument, border value zero, reshaped to `[8, 576, 50176]`. -/
theorem algebraic : Cert.algebraic_KernelIdeal_ReferenceIdeal := by
  intro m ρ m' ρ' _ hagree
  refine ⟨fun c => shapeCast Cert.KernelIdeal.S8x576x50176
      (Cert.Unfold.patches (0 : EReal) (m ((c.tc : Thread Cert.KernelIdeal.nD Cert.KernelIdeal.τ).loc Cert.KernelIdeal.main_arg0)))
      Cert.KernelIdeal.Facts₀.shapeCasts_S8x64x9x224x224_S8x576x50176, ?_, ?_⟩
  · refine (θ_run Cert.KernelIdeal.defs _ _).mono (fun r h c => ⟨(h c).1.trans ?_, (h c).2⟩)
      (Cert.KernelIdeal.ArrayValue.run (F := Ideal) m ρ)
    rw [zero_ideal]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq]
    unfold Cert.ReferenceIdeal.Read.val_main_v20
    rw [Cert.ReferenceIdeal.RefValue.stack_eq, Cert.ReferenceIdeal.RefValue.border_ideal, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
